-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S128x64x2x64x64 : Shape := ⟨5, ![128, 64, 2, 64, 64]⟩
abbrev S_ : Shape := ⟨0, ![]⟩

class Facts : Prop where
  bcast_S_S128x64x2x64x64 : S_.BroadcastsInDim S128x64x2x64x64 (![] : Fin 0 → Fin S128x64x2x64x64.rank)
  reducesTo_S128x64x2x64x64_S_d0_1_2_3_4 : S128x64x2x64x64.ReducesTo [0, 1, 2, 3, 4] S_
  h_S_ : 0 < S_.numel

variable [Facts]

def fn {F : FTy → Type} [FloatOps F] (main_arg0 : IVec S128x64 32) (main_arg1 : FVec F S128x64x2x64x64 .f32) (main_arg2 : FVec F S128x64x2x64x64 .f32) : IVec S_ 1 :=
  let main_v0 : FVec F S128x64x2x64x64 .f32 := Host.absf main_arg1
  let main_cst : FVec F S_ .f32 := constant S_ .f32 0x7F800000#32
  let main_v1 : FVec F S128x64x2x64x64 .f32 := broadcastInDim S128x64x2x64x64 ![] bcast_S_S128x64x2x64x64 main_cst
  let main_v2 : IVec S128x64x2x64x64 1 := cmpf .olt main_v0 main_v1
  let main_c : IVec S_ 1 := constantI S_ 1 1#1
  let main_v3 : IVec S_ 1 := (fun x v => Host.reduce IntOp.andi x v reducesTo_S128x64x2x64x64_S_d0_1_2_3_4 h_S_) main_v2 main_c
  let main_v4 : FVec F S128x64x2x64x64 .f32 := Host.absf main_arg2
  let main_cst_0 : FVec F S_ .f32 := constant S_ .f32 0x7F800000#32
  let main_v5 : FVec F S128x64x2x64x64 .f32 := broadcastInDim S128x64x2x64x64 ![] bcast_S_S128x64x2x64x64 main_cst_0
  let main_v6 : IVec S128x64x2x64x64 1 := cmpf .olt main_v4 main_v5
  let main_c_1 : IVec S_ 1 := constantI S_ 1 1#1
  let main_v7 : IVec S_ 1 := (fun x v => Host.reduce IntOp.andi x v reducesTo_S128x64x2x64x64_S_d0_1_2_3_4 h_S_) main_v6 main_c_1
  let main_v8 : IVec S_ 1 := andi main_v3 main_v7
  main_v8
-- ==== Kernel.lean ====
abbrev S128x64 : Shape := ⟨2, ![128, 64]⟩
abbrev S128x64x2x64x64 : Shape := ⟨5, ![128, 64, 2, 64, 64]⟩
abbrev S9x4 : Shape := ⟨2, ![9, 4]⟩
abbrev S128x64x8192 : Shape := ⟨3, ![128, 64, 8192]⟩
abbrev S_ : Shape := ⟨0, ![]⟩
abbrev S128x64x1 : Shape := ⟨3, ![128, 64, 1]⟩
abbrev S128x64x4 : Shape := ⟨3, ![128, 64, 4]⟩
abbrev S128x64x4096 : Shape := ⟨3, ![128, 64, 4096]⟩
abbrev S2x64x4 : Shape := ⟨3, ![2, 64, 4]⟩
abbrev S2x64x8192 : Shape := ⟨3, ![2, 64, 8192]⟩
abbrev S2x64x4096 : Shape := ⟨3, ![2, 64, 4096]⟩
abbrev S2x64x1 : Shape := ⟨3, ![2, 64, 1]⟩
abbrev S128x64x64x64 : Shape := ⟨4, ![128, 64, 64, 64]⟩

abbrev nBuf : Space → Nat
  | .hbm => 17
  | .vmem => 8
  | .smem => 0
  | _ => 0

abbrev bufTy : (tb : Table) → Fin (tcTables nBuf tb) → BufTy
  | .hbm, ⟨0, _⟩ => ⟨S128x64, .i32⟩
  | .hbm, ⟨1, _⟩ => ⟨S128x64x2x64x64, .f32⟩
  | .hbm, ⟨2, _⟩ => ⟨S128x64x2x64x64, .f32⟩
  | .hbm, ⟨3, _⟩ => ⟨S9x4, .f32⟩
  | .hbm, ⟨4, _⟩ => ⟨S128x64x8192, .f32⟩
  | .hbm, ⟨5, _⟩ => ⟨S128x64x8192, .f32⟩
  | .hbm, ⟨6, _⟩ => ⟨S_, .i32⟩
  | .hbm, ⟨7, _⟩ => ⟨S128x64, .i32⟩
  | .hbm, ⟨8, _⟩ => ⟨S128x64, .i1⟩
  | .hbm, ⟨9, _⟩ => ⟨S_, .i32⟩
  | .hbm, ⟨10, _⟩ => ⟨S128x64, .i32⟩
  | .hbm, ⟨11, _⟩ => ⟨S128x64, .i32⟩
  | .hbm, ⟨12, _⟩ => ⟨S128x64, .i32⟩
  | .hbm, ⟨13, _⟩ => ⟨S128x64x1, .i32⟩
  | .hbm, ⟨14, _⟩ => ⟨S128x64x4, .f32⟩
  | .hbm, ⟨15, _⟩ => ⟨S128x64x4096, .f32⟩
  | .hbm, ⟨16, _⟩ => ⟨S128x64x64x64, .f32⟩
  | .local _ .vmem, ⟨0, _⟩ => ⟨S2x64x4, .f32⟩
  | .local _ .vmem, ⟨1, _⟩ => ⟨S2x64x4, .f32⟩
  | .local _ .vmem, ⟨2, _⟩ => ⟨S2x64x8192, .f32⟩
  | .local _ .vmem, ⟨3, _⟩ => ⟨S2x64x8192, .f32⟩
  | .local _ .vmem, ⟨4, _⟩ => ⟨S2x64x8192, .f32⟩
  | .local _ .vmem, ⟨5, _⟩ => ⟨S2x64x8192, .f32⟩
  | .local _ .vmem, ⟨6, _⟩ => ⟨S2x64x4096, .f32⟩
  | .local _ .vmem, ⟨7, _⟩ => ⟨S2x64x4096, .f32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x64x2x64x64_S128x64x8192 : S128x64x2x64x64.ShapeCasts S128x64x8192
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  inb_S2x64x4_S2x64x4_0_0_0 : ∀ a, (![0, 0, 0] : Fin 3 → Nat) a + S2x64x4.size a ≤ S2x64x4.size a
  h_S2x64x4 : 0 < S2x64x4.numel
  shapeCasts_S2x64x4_S2x64x4 : S2x64x4.ShapeCasts S2x64x4
  slices_S2x64x4_o0_0_0_S2x64x1 : S2x64x4.Slices ![0, 0, 0] S2x64x1
  slices_S2x64x4_o0_0_1_S2x64x1 : S2x64x4.Slices ![0, 0, 1] S2x64x1
  slices_S2x64x4_o0_0_2_S2x64x1 : S2x64x4.Slices ![0, 0, 2] S2x64x1
  slices_S2x64x4_o0_0_3_S2x64x1 : S2x64x4.Slices ![0, 0, 3] S2x64x1
  inb_S2x64x8192_S2x64x4096_0_0_0 : ∀ a, (![0, 0, 0] : Fin 3 → Nat) a + S2x64x4096.size a ≤ S2x64x8192.size a
  h_S2x64x4096 : 0 < S2x64x4096.numel
  shapeCasts_S2x64x4096_S2x64x4096 : S2x64x4096.ShapeCasts S2x64x4096
  inb_S2x64x8192_S2x64x4096_0_0_4096 : ∀ a, (![0, 0, 4096] : Fin 3 → Nat) a + S2x64x4096.size a ≤ S2x64x8192.size a
  broadcasts_S2x64x1_S2x64x4096 : S2x64x1.Broadcasts S2x64x4096
  inb_S2x64x4096_S2x64x4096_0_0_0 : ∀ a, (![0, 0, 0] : Fin 3 → Nat) a + S2x64x4096.size a ≤ S2x64x4096.size a
  shapeCasts_S128x64x4096_S128x64x64x64 : S128x64x4096.ShapeCasts S128x64x64x64
  gather_S9x4_S128x64x1_S128x64x4_2_0_n_n_0_2_14_wf : GatherDims.WF S9x4 S128x64x1 S128x64x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x4.size a ≤ S128x64x4.size a
  hwx0_0 : ∀ i : grid0.Coords, EltTy.bits .f32 = 32 ∨ (Rect.block (s := S128x64x4) S2x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x8192.size a ≤ S128x64x8192.size a
  hwx0_1 : ∀ i : grid0.Coords, EltTy.bits .f32 = 32 ∨ (Rect.block (s := S128x64x8192) S2x64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64x8192.size a ≤ S128x64x8192.size a
  hwx0_2 : ∀ i : grid0.Coords, EltTy.bits .f32 = 32 ∨ (Rect.block (s := S128x64x8192) S2x64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x4096.size a ≤ S128x64x4096.size a
  hwx0_3 : ∀ i : grid0.Coords, EltTy.bits .f32 = 32 ∨ (Rect.block (s := S128x64x4096) S2x64x4096.size (cc0_transform_3 i) (hinb0_3 i)).WholeWords (EltTy.packing .f32)

variable [Facts₀]

def gather_S9x4_S128x64x1_S128x64x4_2_0_n_n_0_2_14 : GatherDims S9x4 S128x64x1 S128x64x4 where
  offsetDims := [2]
  collapsedSliceDims := [0]
  operandBatchingDims := []
  startIndicesBatchingDims := []
  startIndexMap := [0]
  indexVectorDim := 2
  sliceSizes := ![1, 4]
  wf := gather_S9x4_S128x64x1_S128x64x4_2_0_n_n_0_2_14_wf

abbrev win0_0 : Pipeline.Window sig grid0 :=
  Pipeline.Window.ofSpec (Memref.whole main_v8) S2x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2x64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64 : Shape := ⟨2, ![128, 64]⟩
abbrev S128x64x2x64x64 : Shape := ⟨5, ![128, 64, 2, 64, 64]⟩
abbrev S9x4 : Shape := ⟨2, ![9, 4]⟩
abbrev S_ : Shape := ⟨0, ![]⟩
abbrev S128x64x1 : Shape := ⟨3, ![128, 64, 1]⟩
abbrev S128x64x4 : Shape := ⟨3, ![128, 64, 4]⟩
abbrev S128x64x4x1x1 : Shape := ⟨5, ![128, 64, 4, 1, 1]⟩
abbrev S128x64x1x64x64 : Shape := ⟨5, ![128, 64, 1, 64, 64]⟩
abbrev S128x64x64x64 : Shape := ⟨4, ![128, 64, 64, 64]⟩
abbrev S128x64x1x1x1 : Shape := ⟨5, ![128, 64, 1, 1, 1]⟩
abbrev S128x64x1x1 : Shape := ⟨4, ![128, 64, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S128x64x2x64x64, .f32⟩
  | .hbm, ⟨2, _⟩ => ⟨S128x64x2x64x64, .f32⟩
  | .hbm, ⟨3, _⟩ => ⟨S9x4, .f32⟩
  | .hbm, ⟨4, _⟩ => ⟨S_, .i32⟩
  | .hbm, ⟨5, _⟩ => ⟨S128x64, .i32⟩
  | .hbm, ⟨6, _⟩ => ⟨S128x64, .i1⟩
  | .hbm, ⟨7, _⟩ => ⟨S_, .i32⟩
  | .hbm, ⟨8, _⟩ => ⟨S128x64, .i32⟩
  | .hbm, ⟨9, _⟩ => ⟨S128x64, .i32⟩
  | .hbm, ⟨10, _⟩ => ⟨S128x64, .i32⟩
  | .hbm, ⟨11, _⟩ => ⟨S128x64x1, .i32⟩
  | .hbm, ⟨12, _⟩ => ⟨S128x64x4, .f32⟩
  | .hbm, ⟨13, _⟩ => ⟨S128x64x4x1x1, .f32⟩
  | .hbm, ⟨14, _⟩ => ⟨S128x64x1x64x64, .f32⟩
  | .hbm, ⟨15, _⟩ => ⟨S128x64x64x64, .f32⟩
  | .hbm, ⟨16, _⟩ => ⟨S128x64x1x64x64, .f32⟩
  | .hbm, ⟨17, _⟩ => ⟨S128x64x64x64, .f32⟩
  | .hbm, ⟨18, _⟩ => ⟨S128x64x1x64x64, .f32⟩
  | .hbm, ⟨19, _⟩ => ⟨S128x64x64x64, .f32⟩
  | .hbm, ⟨20, _⟩ => ⟨S128x64x1x64x64, .f32⟩
  | .hbm, ⟨21, _⟩ => ⟨S128x64x64x64, .f32⟩
  | .hbm, ⟨22, _⟩ => ⟨S128x64x1x1x1, .f32⟩
  | .hbm, ⟨23, _⟩ => ⟨S128x64x1x1, .f32⟩
  | .hbm, ⟨24, _⟩ => ⟨S128x64x64x64, .f32⟩
  | .hbm, ⟨25, _⟩ => ⟨S128x64x64x64, .f32⟩
  | .hbm, ⟨26, _⟩ => ⟨S128x64x1x1x1, .f32⟩
  | .hbm, ⟨27, _⟩ => ⟨S128x64x1x1, .f32⟩
  | .hbm, ⟨28, _⟩ => ⟨S128x64x64x64, .f32⟩
  | .hbm, ⟨29, _⟩ => ⟨S128x64x64x64, .f32⟩
  | .hbm, ⟨30, _⟩ => ⟨S128x64x64x64, .f32⟩
  | .hbm, ⟨31, _⟩ => ⟨S128x64x1x1x1, .f32⟩
  | .hbm, ⟨32, _⟩ => ⟨S128x64x1x1, .f32⟩
  | .hbm, ⟨33, _⟩ => ⟨S128x64x64x64, .f32⟩
  | .hbm, ⟨34, _⟩ => ⟨S128x64x64x64, .f32⟩
  | .hbm, ⟨35, _⟩ => ⟨S128x64x64x64, .f32⟩
  | .hbm, ⟨36, _⟩ => ⟨S128x64x1x1x1, .f32⟩
  | .hbm, ⟨37, _⟩ => ⟨S128x64x1x1, .f32⟩
  | .hbm, ⟨38, _⟩ => ⟨S128x64x64x64, .f32⟩
  | .hbm, ⟨39, _⟩ => ⟨S128x64x64x64, .f32⟩
  | .hbm, ⟨40, _⟩ => ⟨S128x64x64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S128x64x64x64, .f32⟩
  | .hbm, ⟨45, _⟩ => ⟨S128x64x64x64, .f32⟩
  | .hbm, ⟨46, _⟩ => ⟨S_, .f32⟩
  | .hbm, ⟨47, _⟩ => ⟨S128x64x64x64, .f32⟩
  | .hbm, ⟨48, _⟩ => ⟨S128x64x64x64, .f32⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  bcast_S128x64x4_S128x64x4x1x1_0_1_2 : S128x64x4.BroadcastsInDim S128x64x4x1x1 (![0, 1, 2] : Fin 3 → Fin S128x64x4x1x1.rank)
  slices_S128x64x2x64x64_S128x64x1x64x64_0_0_0_0_0 : S128x64x2x64x64.Slices ![0, 0, 0, 0, 0] S128x64x1x64x64
  shapeCasts_S128x64x1x64x64_S128x64x64x64 : S128x64x1x64x64.ShapeCasts S128x64x64x64
  slices_S128x64x2x64x64_S128x64x1x64x64_0_0_1_0_0 : S128x64x2x64x64.Slices ![0, 0, 1, 0, 0] S128x64x1x64x64
  slices_S128x64x4x1x1_S128x64x1x1x1_0_0_0_0_0 : S128x64x4x1x1.Slices ![0, 0, 0, 0, 0] S128x64x1x1x1
  shapeCasts_S128x64x1x1x1_S128x64x1x1 : S128x64x1x1x1.ShapeCasts S128x64x1x1
  bcast_S128x64x1x1_S128x64x64x64_0_1_2_3 : S128x64x1x1.BroadcastsInDim S128x64x64x64 (![0, 1, 2, 3] : Fin 4 → Fin S128x64x64x64.rank)
  slices_S128x64x4x1x1_S128x64x1x1x1_0_0_1_0_0 : S128x64x4x1x1.Slices ![0, 0, 1, 0, 0] S128x64x1x1x1
  slices_S128x64x4x1x1_S128x64x1x1x1_0_0_2_0_0 : S128x64x4x1x1.Slices ![0, 0, 2, 0, 0] S128x64x1x1x1
  slices_S128x64x4x1x1_S128x64x1x1x1_0_0_3_0_0 : S128x64x4x1x1.Slices ![0, 0, 3, 0, 0] S128x64x1x1x1
  bcast_S_S128x64x64x64 : S_.BroadcastsInDim S128x64x64x64 (![] : Fin 0 → Fin S128x64x64x64.rank)
  gather_S9x4_S128x64x1_S128x64x4_2_0_n_n_0_2_14_wf : GatherDims.WF S9x4 S128x64x1 S128x64x4 [2] [0] [] [0] [] 2 ![1, 4]

variable [Facts₀]

def gather_S9x4_S128x64x1_S128x64x4_2_0_n_n_0_2_14 : GatherDims S9x4 S128x64x1 S128x64x4 where
  offsetDims := [2]
  collapsedSliceDims := [0]
  operandBatchingDims := []
  startIndicesBatchingDims := []
  startIndexMap := [0]
  indexVectorDim := 2
  sliceSizes := ![1, 4]
  wf := gather_S9x4_S128x64x1_S128x64x4_2_0_n_n_0_2_14_wf

class Facts : Prop extends Facts₀ where

variable [Facts]
-- ==== Proof.Spec.lean ====
/-
  The value both programs compute, as ONE function of a coefficient array and the two observation arrays.

  Each sample (b0, b1) carries four coefficients c0..c3 and, in each of the two observation arrays, two 64x64 images
  (channel 0 and channel 1). The result image is the clipped blend, pixel by pixel:

      out(b0, b1, y, x) = min(1, max(0, ((c0·h(·,0,y,x) + c1·h(·,1,y,x)) + c2·r(·,0,y,x)) + c3·r(·,1,y,x)))

  on the extended reals, the sum grouped from the left as both programs group it. The coefficient array is a
  PARAMETER here: both programs obtain it from the integer argument by the same table look-up, and nothing below
  depends on what that look-up returns. No law of the extended reals is used anywhere: the two programs are the same
  expression under two layouts, so the equality never asks the inputs to be finite.
-/
import Idealize.ShloMosaic.PureOps.Ideal
import Idealize.ShloMosaic.Lib.ValueIdx

noncomputable section

namespace Cert.Blend

open Idealize.ShloMosaic Idealize.ShloMosaic.ValueIdx

/-- Four coefficients per sample. -/
abbrev SCoef : Shape := ⟨3, ![128, 64, 4]⟩
/-- Two 64x64 images per sample. -/
abbrev SObs : Shape := ⟨5, ![128, 64, 2, 64, 64]⟩
/-- One 64x64 image per sample. -/
abbrev SOut : Shape := ⟨4, ![128, 64, 64, 64]⟩

/-- The clipped blend of four pixel values with four coefficients: the sum grouped from the left, then clamped below by
    the word of 0.0 and above by the word of 1.0 (the bounds are kept as their words: the same word stands on both
    sides and is never evaluated). -/
def clipBlend (c0 c1 c2 c3 h1 h2 r1 r2 : EReal) : EReal :=
  min (Ideal.ofBits .f32 0x3F800000#32) (max (Ideal.ofBits .f32 0x00000000#32) (c0 * h1 + c1 * h2 + c2 * r1 + c3 * r2))

/-- The result at sample (b0, b1), pixel (y, x). -/
def at4 (coef : FVec Ideal SCoef .f32) (h r : FVec Ideal SObs .f32) (b0 : Fin 128) (b1 : Fin 64) (y x : Fin 64) : EReal :=
  clipBlend (coef (ix3 b0 b1 (0 : Fin 4))) (coef (ix3 b0 b1 (1 : Fin 4))) (coef (ix3 b0 b1 (2 : Fin 4))) (coef (ix3 b0 b1 (3 : Fin 4)))
    (h (ix5 b0 b1 (0 : Fin 2) y x)) (h (ix5 b0 b1 (1 : Fin 2) y x)) (r (ix5 b0 b1 (0 : Fin 2) y x)) (r (ix5 b0 b1 (1 : Fin 2) y x))

/-- The whole result array. -/
def G (coef : FVec Ideal SCoef .f32) (h r : FVec Ideal SObs .f32) : FVec Ideal SOut .f32 :=
  fun i => at4 coef h r (i 0) (i 1) (i 2) (i 3)

/-- The array at an index given by its coordinates. -/
theorem G_ix4 (coef : FVec Ideal SCoef .f32) (h r : FVec Ideal SObs .f32) (b0 : Fin 128) (b1 : Fin 64) (y x : Fin 64) :
    G coef h r (ix4 b0 b1 y x) = at4 coef h r b0 b1 y x := rfl

/-- Two arrays of the result's shape that agree at every tuple of coordinates are equal. -/
theorem ext4 {α : Type} (f g : SOut.Idx → α) (hfg : ∀ (b0 : Fin 128) (b1 : Fin 64) (y x : Fin 64), f (ix4 b0 b1 y x) = g (ix4 b0 b1 y x)) :
    f = g := by
  funext i
  rw [eq_ix4 i]
  exact hfg (i 0) (i 1) (i 2) (i 3)

end Cert.Blend

end
-- ==== Proof.KerPay.lean ====
/-
  The kernel body's arithmetic at one index of its block.

  At a grid point the body holds a [2, 64, 4] block of coefficients and, from each of the two observation windows, the
  two halves (lanes 0..4095 and 4096..8191) of a [2, 64, 8192] block. The value it stores at row (a, b), lane p is the
  clipped blend of the four half-block values at (a, b, p) with the four coefficients of row (a, b): each coefficient is
  cut out as a [2, 64, 1] column and broadcast along the 4096 lanes, so at lane p it is the coefficient itself.
-/
import proofs.«145569_j34170759807476_2_alg».proof.Proof.Gen.KernelIdeal.Skeleton
import proofs.«145569_j34170759807476_2_alg».proof.Proof.Spec
import Idealize.ShloMosaic.Lib.Pipeline.Value
import Idealize.ShloMosaic.Lib.ValueIdx

noncomputable section

namespace Cert.KernelIdeal.BlendValue

open Cert.KernelIdeal Cert.KernelIdeal.Gen Idealize.ShloMosaic Idealize.ShloMosaic.ValueIdx

/-- Column `k` of a [2, 64, 4] block, broadcast along 4096 lanes, read at row (a, b), lane p: entry (a, b, k) of the
    block, whatever the lane. The slice's offsets are a variable with its three values as hypotheses, so that the four
    printed slices (offsets 0, 1, 2, 3 on the last axis) are instances. -/
theorem column_lane (v0 : FVec Ideal S2x64x4 .f32) (off : Fin 3 → Nat) (hsl : S2x64x4.Slices off S2x64x1)
    (hbc : S2x64x1.Broadcasts S2x64x4096) (k : Fin 4) (h0 : off 0 = 0) (h1 : off 1 = 0) (h2 : off 2 = k.val)
    (a : Fin 2) (b : Fin 64) (p : Fin 4096) :
    broadcastTo S2x64x4096 (extractStridedSlice S2x64x1 off v0 hsl) hbc (ix3 a b p) = v0 (ix3 a b k) := by
  -- the broadcast reads the column at (a, b, 0): the column's last axis has extent one
  refine (broadcastTo_apply _ hbc (ix3 a b p) (ix3 a b (0 : Fin 1)) (fun d => match d with
    | ⟨0, _⟩ => by show a.val = if (2 : Nat) = 1 then 0 else a.val; rw [if_neg (by decide)]
    | ⟨1, _⟩ => by show b.val = if (64 : Nat) = 1 then 0 else b.val; rw [if_neg (by decide)]
    | ⟨2, _⟩ => by show (0 : Nat) = if (1 : Nat) = 1 then 0 else p.val; rw [if_pos rfl])).trans ?_
  -- the slice reads the block at the column's index shifted by the offsets
  exact extractStridedSlice_apply off v0 hsl (ix3 a b (0 : Fin 1)) (ix3 a b k) (fun d => match d with
    | ⟨0, _⟩ => by show a.val = off 0 + a.val; omega
    | ⟨1, _⟩ => by show b.val = off 1 + b.val; omega
    | ⟨2, _⟩ => by show k.val = off 2 + 0; omega)

/-- The stored value at row (a, b), lane p: the clipped blend of the four loaded values there with the row's four
    coefficients. The body's shape casts are to the same shape; the sum, the products, the maximum and the minimum are
    the extended reals' at each index; the bounds are the words of 0.0 and 1.0. -/
theorem pay_apply (v0 : FVec Ideal S2x64x4 .f32) (v6 v8 v10 v12 : FVec Ideal S2x64x4096 .f32)
    (a : Fin 2) (b : Fin 64) (p : Fin 4096) :
    k0_pay1 (F := Ideal) v0 v6 v8 v10 v12 (ix3 a b p)
      = Cert.Blend.clipBlend (v0 (ix3 a b (0 : Fin 4))) (v0 (ix3 a b (1 : Fin 4))) (v0 (ix3 a b (2 : Fin 4))) (v0 (ix3 a b (3 : Fin 4)))
          (v6 (ix3 a b p)) (v8 (ix3 a b p)) (v10 (ix3 a b p)) (v12 (ix3 a b p)) := by
  have e0 := fun hsl hbc => column_lane v0 ![0, 0, 0] hsl hbc 0 rfl rfl rfl a b p
  have e1 := fun hsl hbc => column_lane v0 ![0, 0, 1] hsl hbc 1 rfl rfl rfl a b p
  have e2 := fun hsl hbc => column_lane v0 ![0, 0, 2] hsl hbc 2 rfl rfl rfl a b p
  have e3 := fun hsl hbc => column_lane v0 ![0, 0, 3] hsl hbc 3 rfl rfl rfl a b p
  unfold k0_pay1 Cert.Blend.clipBlend
  simp only [shapeCast_self]
  simp only [minimumf_apply, maximumf_apply, addf_apply, mulf_apply, broadcast_apply, e0, e1, e2, e3]
  rfl

end Cert.KernelIdeal.BlendValue

end
-- ==== Proof.KerBlocks.lean ====
/-
  From the blocks the grid points write back to the region's whole result array.

  The region's result is a [128, 64, 4096] array; grid point t owns rows 2t and 2t+1 of its leading axis, whole on the
  other two axes, and the three input windows move with it: the coefficient window's block is rows 2t, 2t+1 of the
  [128, 64, 4] look-up result, each observation window's block rows 2t, 2t+1 of a [128, 64, 8192] array whose lanes
  0..4095 are channel 0 and 4096..8191 channel 1. So what point t writes back is block t of ONE function `lanes` of the
  three arrays as the region finds them, and since the 64 blocks tile the leading axis the array ends at `lanes`.
-/
import proofs.«145569_j34170759807476_2_alg».proof.Proof.Gen.KernelIdeal.Frame
import proofs.«145569_j34170759807476_2_alg».proof.Proof.KerPay
import Idealize.ShloMosaic.Lib.Pipeline.Value

noncomputable section

namespace Cert.KernelIdeal.BlendValue

open Cert.KernelIdeal Cert.KernelIdeal.Gen Idealize.ShloMosaic Idealize.ShloMosaic.TcCoe Idealize.SL.Sem Idealize.ShloMosaic.ValueIdx
open Idealize.ShloMosaic.Pipeline (Dat)

/-- Lane p of channel 0 among the 8192 lanes. -/
abbrev lo (p : Fin 4096) : Fin 8192 := ⟨p.val, by have := p.isLt; omega⟩
/-- Lane p of channel 1 among the 8192 lanes. -/
abbrev hi (p : Fin 4096) : Fin 8192 := ⟨4096 + p.val, by have := p.isLt; omega⟩

/-- The region's result at sample (b0, b1), lane p, from the look-up's result and the two lane-folded observation arrays. -/
def lanesAt (coef : FVec Ideal S128x64x4 .f32) (H R : FVec Ideal S128x64x8192 .f32) (b0 : Fin 128) (b1 : Fin 64) (p : Fin 4096) : EReal :=
  Cert.Blend.clipBlend (coef (ix3 b0 b1 (0 : Fin 4))) (coef (ix3 b0 b1 (1 : Fin 4))) (coef (ix3 b0 b1 (2 : Fin 4))) (coef (ix3 b0 b1 (3 : Fin 4)))
    (H (ix3 b0 b1 (lo p))) (H (ix3 b0 b1 (hi p))) (R (ix3 b0 b1 (lo p))) (R (ix3 b0 b1 (hi p)))

/-- The region's whole result array. -/
def lanes (coef : FVec Ideal S128x64x4 .f32) (H R : FVec Ideal S128x64x8192 .f32) : FVec Ideal S128x64x4096 .f32 :=
  fun i => lanesAt coef H R (i 0) (i 1) (i 2)

/-- The clipped blend of equal arguments. -/
theorem clipBlend_congr {a1 a2 a3 a4 a5 a6 a7 a8 b1 b2 b3 b4 b5 b6 b7 b8 : EReal}
    (h1 : a1 = b1) (h2 : a2 = b2) (h3 : a3 = b3) (h4 : a4 = b4) (h5 : a5 = b5) (h6 : a6 = b6) (h7 : a7 = b7) (h8 : a8 = b8) :
    Cert.Blend.clipBlend a1 a2 a3 a4 a5 a6 a7 a8 = Cert.Blend.clipBlend b1 b2 b3 b4 b5 b6 b7 b8 := by
  subst h1 h2 h3 h4 h5 h6 h7 h8; rfl

/-- A load of the low half of an 8192-lane block reads lane p. -/
theorem ld_lo (x : Vec Ideal S2x64x8192 .f32) (a : Fin 2) (b : Fin 64) (p : Fin 4096) :
    View.ld x r0_1 (ix3 a b p) = x (ix3 a b (lo p)) := by
  show x (r0_1.emb (ix3 a b p)) = _
  refine congrArg x (funext fun d => Fin.ext ?_)
  match d with
  | ⟨0, _⟩ => show 0 + 1 * a.val = a.val; omega
  | ⟨1, _⟩ => show 0 + 1 * b.val = b.val; omega
  | ⟨2, _⟩ => show 0 + 1 * p.val = p.val; omega

/-- A load of the high half reads lane 4096 + p. -/
theorem ld_hi (x : Vec Ideal S2x64x8192 .f32) (a : Fin 2) (b : Fin 64) (p : Fin 4096) :
    View.ld x r0_2 (ix3 a b p) = x (ix3 a b (hi p)) := by
  show x (r0_2.emb (ix3 a b p)) = _
  refine congrArg x (funext fun d => Fin.ext ?_)
  match d with
  | ⟨0, _⟩ => show 0 + 1 * a.val = a.val; omega
  | ⟨1, _⟩ => show 0 + 1 * b.val = b.val; omega
  | ⟨2, _⟩ => show 4096 + 1 * p.val = 4096 + p.val; omega

/-- What the body stores, at an index of its block, from the three input blocks: the clipped blend of the two halves of
    each observation block at the index's lane with the index's row of the coefficient block. -/
theorem pay_block (x0 : Vec Ideal S2x64x4 .f32) (x1 x2 : Vec Ideal S2x64x8192 .f32) (a : Fin 2) (b : Fin 64) (p : Fin 4096) :
    k0_pay1 (F := Ideal) x0 (View.ld x1 r0_1) (View.ld x1 r0_2) (View.ld x2 r0_1) (View.ld x2 r0_2) (ix3 a b p)
      = Cert.Blend.clipBlend (x0 (ix3 a b (0 : Fin 4))) (x0 (ix3 a b (1 : Fin 4))) (x0 (ix3 a b (2 : Fin 4))) (x0 (ix3 a b (3 : Fin 4)))
          (x1 (ix3 a b (lo p))) (x1 (ix3 a b (hi p))) (x2 (ix3 a b (lo p))) (x2 (ix3 a b (hi p))) := by
  rw [pay_apply, ld_lo, ld_hi, ld_lo, ld_hi]

variable (m : (ℓ : Loc nD τ sig) → Buf (Elt Ideal) ℓ)

theorem hz3 : (![0, 0, 0] : Fin 3 → Nat) = fun _ => 0 := funext fun a => by fin_cases a <;> rfl

/-- The printed index maps, decided over the 64 grid points: every window's block index is the point's on the leading
    axis and zero on the other two. -/
theorem idx_facts3 : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) = 0 ∧ win0_3.index t (2 : Fin 3) = 0 :=
  (by decide +kernel : ∀ t : Fin grid0.N, _)

/-- Every pair of leading rows is some point's block. -/
theorem idx_onto3 : ∀ q : Fin 64, ∃ t : Fin cfg0.N, win0_3.index t = ![q.val, 0, 0] :=
  (by decide +kernel : ∀ q : Fin 64, ∃ t : Fin grid0.N, win0_3.index t = ![q.val, 0, 0])

/-- WHAT POINT t WRITES BACK is block t of `lanes` of the three arrays as the region finds them. -/
theorem flushed3_eq (c : Dev nD) (t : Fin cfg0.N) :
    (dats m 0 c).flushed 3 t
      = ((cfg0.win 3).blk t).view.read (Elt Ideal) (lanes (V m c main_v8) (V m c main_v0) (V m c main_v1)) := by
  show (cfg0.win 3).cut (grid0.coords t) ((dats m 0 c).after 3 t) = _
  rw [after0_3]
  unfold out0_3
  rw [View.canon_unit_zero hz3]
  simp only [View.ld_unit_zero (S := S2x64x4) hz3]
  obtain ⟨e00, e01, e02, e10, e11, e12, e20, e21, e22, e30, e31, e32⟩ := idx_facts3 t
  funext j
  have hj0 : (j 0).val < 2 := (j 0).isLt
  have hj1 : (j 1).val < 64 := (j 1).isLt
  have hj2 : (j 2).val < 4096 := (j 2).isLt
  show k0_pay1 (F := Ideal) (iblk m c 0 t) (View.ld (iblk m c 1 t) r0_1) (View.ld (iblk m c 1 t) r0_2) (View.ld (iblk m c 2 t) r0_1)
      (View.ld (iblk m c 2 t) r0_2) (ix3 (⟨(j 0).val, hj0⟩ : Fin 2) (⟨(j 1).val, hj1⟩ : Fin 64) (⟨(j 2).val, hj2⟩ : Fin 4096))
    = lanesAt (V m c main_v8) (V m c main_v0) (V m c main_v1) (((cfg0.win 3).blk t).view.emb j 0) (((cfg0.win 3).blk t).view.emb j 1)
        (((cfg0.win 3).blk t).view.emb j 2)
  refine (pay_block (iblk m c 0 t) (iblk m c 1 t) (iblk m c 2 t) ⟨(j 0).val, hj0⟩ ⟨(j 1).val, hj1⟩ ⟨(j 2).val, hj2⟩).trans ?_
  unfold lanesAt
  -- each input block is its array read where the OUTPUT's block sits: a block's coordinate is index × size + the
  -- coordinate inside the block, and the index maps agree on the leading axis and vanish on the others
  have rd0 : ∀ k : Fin 4, iblk m c 0 t (ix3 (⟨(j 0).val, hj0⟩ : Fin 2) (⟨(j 1).val, hj1⟩ : Fin 64) k)
      = V m c main_v8 (ix3 (((cfg0.win 3).blk t).view.emb j 0) (((cfg0.win 3).blk t).view.emb j 1) k) := by
    intro k
    show V m c main_v8 (((cfg0.win 0).blk t).view.emb (ix3 (⟨(j 0).val, hj0⟩ : Fin 2) (⟨(j 1).val, hj1⟩ : Fin 64) k)) = V m c main_v8 _
    refine congrArg (V m c main_v8) (funext fun a => Fin.ext ?_)
    match a with
    | ⟨0, _⟩ => show win0_0.index t (0 : Fin 3) * 2 + 1 * (j 0).val = win0_3.index t (0 : Fin 3) * 2 + 1 * (j 0).val; omega
    | ⟨1, _⟩ => show win0_0.index t (1 : Fin 3) * 64 + 1 * (j 1).val = win0_3.index t (1 : Fin 3) * 64 + 1 * (j 1).val; omega
    | ⟨2, _⟩ => show win0_0.index t (2 : Fin 3) * 4 + 1 * k.val = k.val; omega
  have rd1 : ∀ q q' : Fin 8192, q'.val = win0_1.index t (2 : Fin 3) * 8192 + 1 * q.val →
      iblk m c 1 t (ix3 (⟨(j 0).val, hj0⟩ : Fin 2) (⟨(j 1).val, hj1⟩ : Fin 64) q)
        = V m c main_v0 (ix3 (((cfg0.win 3).blk t).view.emb j 0) (((cfg0.win 3).blk t).view.emb j 1) q') := by
    intro q q' hq
    show V m c main_v0 (((cfg0.win 1).blk t).view.emb (ix3 (⟨(j 0).val, hj0⟩ : Fin 2) (⟨(j 1).val, hj1⟩ : Fin 64) q)) = V m c main_v0 _
    refine congrArg (V m c main_v0) (funext fun a => Fin.ext ?_)
    match a with
    | ⟨0, _⟩ => show win0_1.index t (0 : Fin 3) * 2 + 1 * (j 0).val = win0_3.index t (0 : Fin 3) * 2 + 1 * (j 0).val; omega
    | ⟨1, _⟩ => show win0_1.index t (1 : Fin 3) * 64 + 1 * (j 1).val = win0_3.index t (1 : Fin 3) * 64 + 1 * (j 1).val; omega
    | ⟨2, _⟩ => show win0_1.index t (2 : Fin 3) * 8192 + 1 * q.val = q'.val; omega
  have rd2 : ∀ q q' : Fin 8192, q'.val = win0_2.index t (2 : Fin 3) * 8192 + 1 * q.val →
      iblk m c 2 t (ix3 (⟨(j 0).val, hj0⟩ : Fin 2) (⟨(j 1).val, hj1⟩ : Fin 64) q)
        = V m c main_v1 (ix3 (((cfg0.win 3).blk t).view.emb j 0) (((cfg0.win 3).blk t).view.emb j 1) q') := by
    intro q q' hq
    show V m c main_v1 (((cfg0.win 2).blk t).view.emb (ix3 (⟨(j 0).val, hj0⟩ : Fin 2) (⟨(j 1).val, hj1⟩ : Fin 64) q)) = V m c main_v1 _
    refine congrArg (V m c main_v1) (funext fun a => Fin.ext ?_)
    match a with
    | ⟨0, _⟩ => show win0_2.index t (0 : Fin 3) * 2 + 1 * (j 0).val = win0_3.index t (0 : Fin 3) * 2 + 1 * (j 0).val; omega
    | ⟨1, _⟩ => show win0_2.index t (1 : Fin 3) * 64 + 1 * (j 1).val = win0_3.index t (1 : Fin 3) * 64 + 1 * (j 1).val; omega
    | ⟨2, _⟩ => show win0_2.index t (2 : Fin 3) * 8192 + 1 * q.val = q'.val; omega
  -- the output block's lane: index × 4096 + the lane inside the block
  have hlo1 : (lo (((cfg0.win 3).blk t).view.emb j 2)).val = win0_1.index t (2 : Fin 3) * 8192 + 1 * (lo (⟨(j 2).val, hj2⟩ : Fin 4096)).val := by
    show win0_3.index t (2 : Fin 3) * 4096 + 1 * (j 2).val = win0_1.index t (2 : Fin 3) * 8192 + 1 * (j 2).val; omega
  have hhi1 : (hi (((cfg0.win 3).blk t).view.emb j 2)).val = win0_1.index t (2 : Fin 3) * 8192 + 1 * (hi (⟨(j 2).val, hj2⟩ : Fin 4096)).val := by
    show 4096 + (win0_3.index t (2 : Fin 3) * 4096 + 1 * (j 2).val) = win0_1.index t (2 : Fin 3) * 8192 + 1 * (4096 + (j 2).val); omega
  have hlo2 : (lo (((cfg0.win 3).blk t).view.emb j 2)).val = win0_2.index t (2 : Fin 3) * 8192 + 1 * (lo (⟨(j 2).val, hj2⟩ : Fin 4096)).val := by
    show win0_3.index t (2 : Fin 3) * 4096 + 1 * (j 2).val = win0_2.index t (2 : Fin 3) * 8192 + 1 * (j 2).val; omega
  have hhi2 : (hi (((cfg0.win 3).blk t).view.emb j 2)).val = win0_2.index t (2 : Fin 3) * 8192 + 1 * (hi (⟨(j 2).val, hj2⟩ : Fin 4096)).val := by
    show 4096 + (win0_3.index t (2 : Fin 3) * 4096 + 1 * (j 2).val) = win0_2.index t (2 : Fin 3) * 8192 + 1 * (4096 + (j 2).val); omega
  exact clipBlend_congr (rd0 0) (rd0 1) (rd0 2) (rd0 3) (rd1 _ _ hlo1) (rd1 _ _ hhi1) (rd2 _ _ hlo2) (rd2 _ _ hhi2)

/-- An index of the result array is in point t's block iff each coordinate is in the block's range on its axis. -/
theorem mem_blk3 (t : Fin cfg0.N) (i : S128x64x4096.Idx) :
    i ∈ ((cfg0.win 3).blk t).view.set ↔ ∀ a : Fin 3, win0_3.index t a * S2x64x4096.size a ≤ (i a).val
      ∧ (i a).val < win0_3.index t a * S2x64x4096.size a + S2x64x4096.size a := by
  show i ∈ ((View.whole main_v9).slice (win0_3.rect t)).set ↔ _
  rw [View.set_slice_whole, Rect.mem_set_unit]
  exact Iff.rfl

/-- The 64 blocks tile the array: the point whose block holds leading row r is r / 2. -/
theorem cover3 (i : S128x64x4096.Idx) : ∃ t : Fin cfg0.N, (cfg0.win 3).flush t = true ∧ i ∈ ((cfg0.win 3).blk t).view.set := by
  have hi0 : (i 0).val < 128 := (i 0).isLt
  have hi1 : (i 1).val < 64 := (i 1).isLt
  have hi2 : (i 2).val < 4096 := (i 2).isLt
  obtain ⟨t, ht⟩ := idx_onto3 ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 64 ≤ (i 1).val ∧ (i 1).val < win0_3.index t (1 : Fin 3) * 64 + 64; omega
  | ⟨2, _⟩ => show win0_3.index t (2 : Fin 3) * 4096 ≤ (i 2).val ∧ (i 2).val < win0_3.index t (2 : Fin 3) * 4096 + 4096; omega

/-- THE REGION'S RESULT ARRAY after the run: `lanes` of the three arrays as the region finds them. -/
theorem final3 (c : Dev nD) :
    (dats m 0 c).arrAt 3 cfg0.N = lanes (V m c main_v8) (V m c main_v0) (V m c main_v1) :=
  (dats m 0 c).arrAt_eq_of_cover 3 _ (fun t _ => flushed3_eq m c t) cover3

end Cert.KernelIdeal.BlendValue

end
-- ==== Proof.KerHost.lean ====
/-
  The host operations around the kernel's region.

  Before the region: each observation array is reshaped from [128, 64, 2, 64, 64] to [128, 64, 8192] (the size-2 axis
  and the pixels folded into one lane axis), and the coefficient look-up builds its [128, 64, 4] result from the
  integer argument. After the region: its [128, 64, 4096] result is reshaped to [128, 64, 64, 64]. All of them are read
  off the fold of the host operations over the launch memory; the region's result array is the one the block-by-block
  argument gives.
-/
import proofs.«145569_j34170759807476_2_alg».proof.Proof.KerBlocks
import Idealize.ShloMosaic.Lib.StableHlo.Run

noncomputable section

namespace Cert.KernelIdeal.BlendValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-- The coefficient look-up: the 9x4 table gathered at the sample's program number, 9 added to a negative one first. -/
def coefOf (x : IVec S128x64 32) : FVec Ideal S128x64x4 .f32 :=
  Host.gather gather_S9x4_S128x64x1_S128x64x4_2_0_n_n_0_2_14 (fun i => FloatOps.ofBits .f32 (lit0 (S9x4.rowMajor i)))
    (broadcastInDim S128x64x1 ![0, 1] bcast_S128x64_S128x64x1_0_1
      (select (cmpi .slt x (broadcastInDim S128x64 ![] bcast_S_S128x64 (constantI S_ 32 0#32)))
        (addi x (broadcastInDim S128x64 ![] bcast_S_S128x64 (constantI S_ 32 9#32))) x))

/-- The first observation window's array, as the region finds it: the first observation argument with its last three
    axes folded into 8192 lanes. -/
theorem V_v0 (c : Dev nD) :
    (V m c main_v0 : S128x64x8192.Idx → EReal)
      = shapeCast S128x64x8192 (m ((c : Thread nD τ).loc main_arg1)) shapeCasts_S128x64x2x64x64_S128x64x8192 := by
  show StableHlo.after hostOps0 (fun b => m (c, b)) (Proc.devRef .tc main_v0) = _
  after_results
  rfl

/-- The second observation window's array likewise. -/
theorem V_v1 (c : Dev nD) :
    (V m c main_v1 : S128x64x8192.Idx → EReal)
      = shapeCast S128x64x8192 (m ((c : Thread nD τ).loc main_arg2)) shapeCasts_S128x64x2x64x64_S128x64x8192 := by
  show StableHlo.after hostOps0 (fun b => m (c, b)) (Proc.devRef .tc main_v1) = _
  after_results
  rfl

attribute [local irreducible] Host.gather in
/-- The coefficient window's array: the look-up's result on the integer argument. -/
theorem V_v8 (c : Dev nD) :
    (V m c main_v8 : S128x64x4.Idx → EReal) = coefOf (m ((c : Thread nD τ).loc main_arg0)) := by
  show StableHlo.after hostOps0 (fun b => m (c, b)) (Proc.devRef .tc main_v8) = _
  after_results
  rfl

/-- The program's result buffer after the run: the region's result array reshaped to [128, 64, 64, 64]. -/
theorem tail_eq (c : Dev nD) :
    (Pipeline.afterTail₀ cfgs (dats m) 0 (V0 m) [hostOps1] c main_v10 : S128x64x64x64.Idx → EReal)
      = shapeCast S128x64x64x64 (lanes (V m c main_v8) (V m c main_v0) (V m c main_v1)) shapeCasts_S128x64x4096_S128x64x64x64 := by
  unfold Pipeline.afterTail₀
  show StableHlo.after hostOps1 _ (Proc.devRef .tc main_v10) = _
  after_results
  have hreg : Pipeline.withArrays (cfgs 0).spec c (V0 m c) (fun w => (dats m 0 c).arrAt w (cfgs 0).N) (Proc.devRef .tc main_v9)
      = lanes (V m c main_v8) (V m c main_v0) (V m c main_v1) :=
    (Pipeline.withArrays_arr spec0 launch0.win.arr_inj c (V0 m c) (fun w => (dats m 0 c).arrAt w cfg0.N) 3).trans (final3 m c)
  rw [hreg]
  rfl

end Cert.KernelIdeal.BlendValue

end
-- ==== Proof.KerValue.lean ====
/-
  The kernel program's result is the specification's array.

  The region's result at (b0, b1, p) blends lanes p and 4096 + p of the lane-folded observation arrays. Folding
  [2, 64, 64] into 8192 lanes puts channel ch, pixel (y, x) at lane 4096·ch + 64·y + x, and unfolding 4096 lanes into
  [64, 64] puts lane 64·y + x at pixel (y, x): a reshape keeps the row-major position. So the program's result at
  (b0, b1, y, x) blends the observation arrays at (b0, b1, 0, y, x) and (b0, b1, 1, y, x) with the look-up's row (b0, b1).
-/
import proofs.«145569_j34170759807476_2_alg».proof.Proof.KerHost
import proofs.«145569_j34170759807476_2_alg».proof.Proof.Spec

noncomputable section

namespace Cert.KernelIdeal.BlendValue

open Cert.KernelIdeal Cert.KernelIdeal.Gen Idealize.ShloMosaic Idealize.ShloMosaic.TcCoe Idealize.SL.Sem Idealize.ShloMosaic.ValueIdx
open Idealize.ShloMosaic.Pipeline (Dat)

/-- Pixel (y, x) among the 4096 lanes of one channel. -/
abbrev pix (y x : Fin 64) : Fin 4096 := ⟨y.val * 64 + x.val, by have := y.isLt; have := x.isLt; omega⟩

/-- The region's result over the lane-folded observation arrays, unfolded to pixels, is the specification's array. -/
theorem unfolded_eq (coef : FVec Ideal S128x64x4 .f32) (a1 a2 : FVec Ideal S128x64x2x64x64 .f32)
    (h1 : S128x64x2x64x64.ShapeCasts S128x64x8192) (h2 : S128x64x4096.ShapeCasts S128x64x64x64) :
    shapeCast S128x64x64x64 (lanes coef (shapeCast S128x64x8192 a1 h1) (shapeCast S128x64x8192 a2 h1)) h2
      = Cert.Blend.G coef a1 a2 := by
  refine Cert.Blend.ext4 _ _ fun b0 b1 y x => ?_
  have hb0 := b0.isLt
  have hb1 := b1.isLt
  have hy := y.isLt
  have hx := x.isLt
  rw [Cert.Blend.G_ix4]
  -- the unfolding reshape at (b0, b1, y, x) reads lane 64·y + x
  refine (shapeCast_apply _ h2 (ix4 b0 b1 y x) (ix3 b0 b1 (pix y x)) (by
    rw [Shape.rowMajor_val_three, Shape.rowMajor_val_four]
    show (b0.val * 64 + b1.val) * 4096 + (y.val * 64 + x.val) = ((b0.val * 64 + b1.val) * 64 + y.val) * 64 + x.val
    omega)).trans ?_
  show lanesAt coef (shapeCast S128x64x8192 a1 h1) (shapeCast S128x64x8192 a2 h1) b0 b1 (pix y x) = Cert.Blend.at4 coef a1 a2 b0 b1 y x
  unfold lanesAt Cert.Blend.at4
  -- the folding reshape at lane 64·y + x is channel 0 at (y, x), at lane 4096 + 64·y + x channel 1
  have flo : ∀ a : FVec Ideal S128x64x2x64x64 .f32,
      shapeCast S128x64x8192 a h1 (ix3 b0 b1 (lo (pix y x))) = a (ix5 b0 b1 (0 : Fin 2) y x) := fun a =>
    shapeCast_apply a h1 (ix3 b0 b1 (lo (pix y x))) (ix5 b0 b1 (0 : Fin 2) y x) (by
      rw [Shape.rowMajor_val_five, Shape.rowMajor_val_three]
      show (((b0.val * 64 + b1.val) * 2 + 0) * 64 + y.val) * 64 + x.val = (b0.val * 64 + b1.val) * 8192 + (y.val * 64 + x.val)
      omega)
  have fhi : ∀ a : FVec Ideal S128x64x2x64x64 .f32,
      shapeCast S128x64x8192 a h1 (ix3 b0 b1 (hi (pix y x))) = a (ix5 b0 b1 (1 : Fin 2) y x) := fun a =>
    shapeCast_apply a h1 (ix3 b0 b1 (hi (pix y x))) (ix5 b0 b1 (1 : Fin 2) y x) (by
      rw [Shape.rowMajor_val_five, Shape.rowMajor_val_three]
      show (((b0.val * 64 + b1.val) * 2 + 1) * 64 + y.val) * 64 + x.val = (b0.val * 64 + b1.val) * 8192 + (4096 + (y.val * 64 + x.val))
      omega)
  exact clipBlend_congr rfl rfl rfl rfl (flo a1) (fhi a1) (flo a2) (fhi a2)

variable (m : (ℓ : Loc nD τ sig) → Buf (Elt Ideal) ℓ) (ρ : Dev nD → PrngReg)

/-- The program's result buffer after the run is the specification's array of the look-up's result and the two
    observation arguments. -/
theorem value (c : Dev nD) :
    (Pipeline.afterTail₀ cfgs (dats m) 0 (V0 m) [hostOps1] c main_v10 : S128x64x64x64.Idx → EReal)
      = Cert.Blend.G (coefOf (m ((c : Thread nD τ).loc main_arg0))) (m ((c : Thread nD τ).loc main_arg1)) (m ((c : Thread nD τ).loc main_arg2)) := by
  rw [tail_eq, V_v8, V_v0, V_v1]
  exact unfolded_eq _ _ _ _ _

/-- THE KERNEL PROGRAM'S RUN, read: every weakly fair execution terminates with the result buffer at the specification's
    array and the three arguments unchanged. -/
theorem run : θ_run defs (onTc (τ := τ) (main (F := Ideal))) ⟨m, fun _ => 0, ρ⟩ fun r => ∀ c : Dev nD,
      r.2.mem ((c.tc : Thread nD τ).loc main_v10)
        = Cert.Blend.G (coefOf (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.BlendValue

end
-- ==== Proof.RefRun.lean ====
/-
  The reference program's run, read back.

  The reference is a straight line of host operations: the coefficient look-up (the 9x4 table, the index wrapped when
  negative, the gather), the two channels of each observation array cut out and reshaped to [128, 64, 64, 64], each
  coefficient cut out of the look-up's result and broadcast over the 64x64 pixels, the four products summed from the
  left, and the clip — a private function of six operations, listed here at its call over the call's own buffers. Every
  weakly fair execution ends with each buffer at the fold of these operations over the launch contents; the result
  buffer's fold is the composed term `result` of the three arguments, stated below stage by stage.
-/
import proofs.«145569_j34170759807476_2_alg».proof.Proof.Gen.ReferenceIdeal
import Idealize.ShloMosaic.Lib.StableHlo.Run

noncomputable section

namespace Cert.ReferenceIdeal.BlendRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the clip's six at its call. -/
abbrev ops : List (HloOp τ sig (Elt F)) :=
  [
    nullary main_cst (fun i => FloatOps.ofBits .f32 (lit0 (S9x4.rowMajor i))),
    nullary main_c (constantI S_ 32 0#32),
    unary main_c main_v0 (broadcastInDim S128x64 ![] bcast_S_S128x64 : (⟨S_, .i32⟩ : BufTy).Contents (Elt F) → (⟨S128x64, .i32⟩ : BufTy).Contents (Elt F)),
    binary main_arg0 main_v0 main_v1 (cmpi .slt : (⟨S128x64, .i32⟩ : BufTy).Contents (Elt F) → (⟨S128x64, .i32⟩ : BufTy).Contents (Elt F) → (⟨S128x64, .i1⟩ : BufTy).Contents (Elt F)),
    nullary main_c_0 (constantI S_ 32 9#32),
    unary main_c_0 main_v2 (broadcastInDim S128x64 ![] bcast_S_S128x64 : (⟨S_, .i32⟩ : BufTy).Contents (Elt F) → (⟨S128x64, .i32⟩ : BufTy).Contents (Elt F)),
    binary main_arg0 main_v2 main_v3 (addi : (⟨S128x64, .i32⟩ : BufTy).Contents (Elt F) → (⟨S128x64, .i32⟩ : BufTy).Contents (Elt F) → (⟨S128x64, .i32⟩ : BufTy).Contents (Elt F)),
    ternary main_v1 main_v3 main_arg0 main_v4 (select : (⟨S128x64, .i1⟩ : BufTy).Contents (Elt F) → (⟨S128x64, .i32⟩ : BufTy).Contents (Elt F) → (⟨S128x64, .i32⟩ : BufTy).Contents (Elt F) → (⟨S128x64, .i32⟩ : BufTy).Contents (Elt F)),
    unary main_v4 main_v5 (broadcastInDim S128x64x1 ![0, 1] bcast_S128x64_S128x64x1_0_1 : (⟨S128x64, .i32⟩ : BufTy).Contents (Elt F) → (⟨S128x64x1, .i32⟩ : BufTy).Contents (Elt F)),
    binary main_cst main_v5 main_v6 ((fun x i => Host.gather gather_S9x4_S128x64x1_S128x64x4_2_0_n_n_0_2_14 x i) : (⟨S9x4, .f32⟩ : BufTy).Contents (Elt F) → (⟨S128x64x1, .i32⟩ : BufTy).Contents (Elt F) → (⟨S128x64x4, .f32⟩ : BufTy).Contents (Elt F)),
    unary main_v6 main_v7 (broadcastInDim S128x64x4x1x1 ![0, 1, 2] bcast_S128x64x4_S128x64x4x1x1_0_1_2 : (⟨S128x64x4, .f32⟩ : BufTy).Contents (Elt F) → (⟨S128x64x4x1x1, .f32⟩ : BufTy).Contents (Elt F)),
    unary main_arg1 main_v8 ((extractStridedSlice S128x64x1x64x64 ![0, 0, 0, 0, 0] · slices_S128x64x2x64x64_S128x64x1x64x64_0_0_0_0_0) : (⟨S128x64x2x64x64, .f32⟩ : BufTy).Contents (Elt F) → (⟨S128x64x1x64x64, .f32⟩ : BufTy).Contents (Elt F)),
    reshape main_v8 main_v9 rfl shapeCasts_S128x64x1x64x64_S128x64x64x64,
    unary main_arg1 main_v10 ((extractStridedSlice S128x64x1x64x64 ![0, 0, 1, 0, 0] · slices_S128x64x2x64x64_S128x64x1x64x64_0_0_1_0_0) : (⟨S128x64x2x64x64, .f32⟩ : BufTy).Contents (Elt F) → (⟨S128x64x1x64x64, .f32⟩ : BufTy).Contents (Elt F)),
    reshape main_v10 main_v11 rfl shapeCasts_S128x64x1x64x64_S128x64x64x64,
    unary main_arg2 main_v12 ((extractStridedSlice S128x64x1x64x64 ![0, 0, 0, 0, 0] · slices_S128x64x2x64x64_S128x64x1x64x64_0_0_0_0_0) : (⟨S128x64x2x64x64, .f32⟩ : BufTy).Contents (Elt F) → (⟨S128x64x1x64x64, .f32⟩ : BufTy).Contents (Elt F)),
    reshape main_v12 main_v13 rfl shapeCasts_S128x64x1x64x64_S128x64x64x64,
    unary main_arg2 main_v14 ((extractStridedSlice S128x64x1x64x64 ![0, 0, 1, 0, 0] · slices_S128x64x2x64x64_S128x64x1x64x64_0_0_1_0_0) : (⟨S128x64x2x64x64, .f32⟩ : BufTy).Contents (Elt F) → (⟨S128x64x1x64x64, .f32⟩ : BufTy).Contents (Elt F)),
    reshape main_v14 main_v15 rfl shapeCasts_S128x64x1x64x64_S128x64x64x64,
    unary main_v7 main_v16 ((extractStridedSlice S128x64x1x1x1 ![0, 0, 0, 0, 0] · slices_S128x64x4x1x1_S128x64x1x1x1_0_0_0_0_0) : (⟨S128x64x4x1x1, .f32⟩ : BufTy).Contents (Elt F) → (⟨S128x64x1x1x1, .f32⟩ : BufTy).Contents (Elt F)),
    reshape main_v16 main_v17 rfl shapeCasts_S128x64x1x1x1_S128x64x1x1,
    unary main_v17 main_v18 (broadcastInDim S128x64x64x64 ![0, 1, 2, 3] bcast_S128x64x1x1_S128x64x64x64_0_1_2_3 : (⟨S128x64x1x1, .f32⟩ : BufTy).Contents (Elt F) → (⟨S128x64x64x64, .f32⟩ : BufTy).Contents (Elt F)),
    binary main_v18 main_v9 main_v19 (mulf : (⟨S128x64x64x64, .f32⟩ : BufTy).Contents (Elt F) → (⟨S128x64x64x64, .f32⟩ : BufTy).Contents (Elt F) → (⟨S128x64x64x64, .f32⟩ : BufTy).Contents (Elt F)),
    unary main_v7 main_v20 ((extractStridedSlice S128x64x1x1x1 ![0, 0, 1, 0, 0] · slices_S128x64x4x1x1_S128x64x1x1x1_0_0_1_0_0) : (⟨S128x64x4x1x1, .f32⟩ : BufTy).Contents (Elt F) → (⟨S128x64x1x1x1, .f32⟩ : BufTy).Contents (Elt F)),
    reshape main_v20 main_v21 rfl shapeCasts_S128x64x1x1x1_S128x64x1x1,
    unary main_v21 main_v22 (broadcastInDim S128x64x64x64 ![0, 1, 2, 3] bcast_S128x64x1x1_S128x64x64x64_0_1_2_3 : (⟨S128x64x1x1, .f32⟩ : BufTy).Contents (Elt F) → (⟨S128x64x64x64, .f32⟩ : BufTy).Contents (Elt F)),
    binary main_v22 main_v11 main_v23 (mulf : (⟨S128x64x64x64, .f32⟩ : BufTy).Contents (Elt F) → (⟨S128x64x64x64, .f32⟩ : BufTy).Contents (Elt F) → (⟨S128x64x64x64, .f32⟩ : BufTy).Contents (Elt F)),
    binary main_v19 main_v23 main_v24 (addf : (⟨S128x64x64x64, .f32⟩ : BufTy).Contents (Elt F) → (⟨S128x64x64x64, .f32⟩ : BufTy).Contents (Elt F) → (⟨S128x64x64x64, .f32⟩ : BufTy).Contents (Elt F)),
    unary main_v7 main_v25 ((extractStridedSlice S128x64x1x1x1 ![0, 0, 2, 0, 0] · slices_S128x64x4x1x1_S128x64x1x1x1_0_0_2_0_0) : (⟨S128x64x4x1x1, .f32⟩ : BufTy).Contents (Elt F) → (⟨S128x64x1x1x1, .f32⟩ : BufTy).Contents (Elt F)),
    reshape main_v25 main_v26 rfl shapeCasts_S128x64x1x1x1_S128x64x1x1,
    unary main_v26 main_v27 (broadcastInDim S128x64x64x64 ![0, 1, 2, 3] bcast_S128x64x1x1_S128x64x64x64_0_1_2_3 : (⟨S128x64x1x1, .f32⟩ : BufTy).Contents (Elt F) → (⟨S128x64x64x64, .f32⟩ : BufTy).Contents (Elt F)),
    binary main_v27 main_v13 main_v28 (mulf : (⟨S128x64x64x64, .f32⟩ : BufTy).Contents (Elt F) → (⟨S128x64x64x64, .f32⟩ : BufTy).Contents (Elt F) → (⟨S128x64x64x64, .f32⟩ : BufTy).Contents (Elt F)),
    binary main_v24 main_v28 main_v29 (addf : (⟨S128x64x64x64, .f32⟩ : BufTy).Contents (Elt F) → (⟨S128x64x64x64, .f32⟩ : BufTy).Contents (Elt F) → (⟨S128x64x64x64, .f32⟩ : BufTy).Contents (Elt F)),
    unary main_v7 main_v30 ((extractStridedSlice S128x64x1x1x1 ![0, 0, 3, 0, 0] · slices_S128x64x4x1x1_S128x64x1x1x1_0_0_3_0_0) : (⟨S128x64x4x1x1, .f32⟩ : BufTy).Contents (Elt F) → (⟨S128x64x1x1x1, .f32⟩ : BufTy).Contents (Elt F)),
    reshape main_v30 main_v31 rfl shapeCasts_S128x64x1x1x1_S128x64x1x1,
    unary main_v31 main_v32 (broadcastInDim S128x64x64x64 ![0, 1, 2, 3] bcast_S128x64x1x1_S128x64x64x64_0_1_2_3 : (⟨S128x64x1x1, .f32⟩ : BufTy).Contents (Elt F) → (⟨S128x64x64x64, .f32⟩ : BufTy).Contents (Elt F)),
    binary main_v32 main_v15 main_v33 (mulf : (⟨S128x64x64x64, .f32⟩ : BufTy).Contents (Elt F) → (⟨S128x64x64x64, .f32⟩ : BufTy).Contents (Elt F) → (⟨S128x64x64x64, .f32⟩ : BufTy).Contents (Elt F)),
    binary main_v29 main_v33 main_v34 (addf : (⟨S128x64x64x64, .f32⟩ : BufTy).Contents (Elt F) → (⟨S128x64x64x64, .f32⟩ : BufTy).Contents (Elt F) → (⟨S128x64x64x64, .f32⟩ : BufTy).Contents (Elt F)),
    nullary main_cst_1 (constant S_ .f32 0x00000000#32),
    nullary main_cst_2 (constant S_ .f32 0x3F800000#32),
    TRef.unary (.of main_cst_1) main_call0.v0 id,
    TRef.unary main_call0.v0 main_call0.v1 (broadcastInDim S128x64x64x64 ![] bcast_S_S128x64x64x64),
    TRef.binary main_call0.v1 (.of main_v34) main_call0.v2 maximumf,
    TRef.unary (.of main_cst_2) main_call0.v3 id,
    TRef.unary main_call0.v3 main_call0.v4 (broadcastInDim S128x64x64x64 ![] bcast_S_S128x64x64x64),
    TRef.binary main_call0.v4 main_call0.v2 main_call0.v5 minimumf ]

-- forty-six binds re-associated under the chain
set_option maxRecDepth 2048 in
/-- @main is that straight line: the clip's definition unfolded at its call, both sides are one chain of operation
    steps once sequencing is re-associated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.BlendRun

end
-- ==== Proof.RefValue.lean ====
/-
  What the reference computes, index by index.

  The reference's result buffer ends at one composed term of the three arguments (`result`): the clip's minimum and
  maximum against the broadcast bounds, over the four products summed from the left, each product a coefficient PLANE
  times an observation CHANNEL. A channel is the slice of an observation array at one value of its size-2 axis, reshaped
  from [128, 64, 1, 64, 64] to [128, 64, 64, 64]: at (b0, b1, y, x) it is the array at (b0, b1, ch, y, x). A plane is one
  coefficient of the look-up's result — broadcast to [128, 64, 4, 1, 1], sliced at k on the third axis, reshaped to
  [128, 64, 1, 1], broadcast over the 64 x 64 pixels: at (b0, b1, y, x) it is the look-up's result at (b0, b1, k).
  So at every index the term is the specification's clipped blend.
-/
import proofs.«145569_j34170759807476_2_alg».proof.Proof.RefRun
import proofs.«145569_j34170759807476_2_alg».proof.Proof.Spec
import Idealize.ShloMosaic.Lib.Pipeline.Value
import Idealize.ShloMosaic.Lib.ValueIdx

noncomputable section

namespace Cert.ReferenceIdeal.BlendRun

open Cert.ReferenceIdeal Cert.ReferenceIdeal.Gen Idealize.ShloMosaic Idealize.ShloMosaic.TcCoe Idealize.SL.Sem Idealize.ShloMosaic.StableHlo
open Idealize.ShloMosaic.ValueIdx

/-- The coefficient look-up: the 9x4 table gathered at the sample's program number, 9 added to a negative one first. -/
def coefOf (x : IVec S128x64 32) : FVec Ideal S128x64x4 .f32 :=
  Host.gather gather_S9x4_S128x64x1_S128x64x4_2_0_n_n_0_2_14 (fun i => FloatOps.ofBits .f32 (lit0 (S9x4.rowMajor i)))
    (broadcastInDim S128x64x1 ![0, 1] bcast_S128x64_S128x64x1_0_1
      (select (cmpi .slt x (broadcastInDim S128x64 ![] bcast_S_S128x64 (constantI S_ 32 0#32)))
        (addi x (broadcastInDim S128x64 ![] bcast_S_S128x64 (constantI S_ 32 9#32))) x))

/-- One channel of an observation array as a [128, 64, 64, 64] array. -/
def chan (off : Fin 5 → Nat) (hs : S128x64x2x64x64.Slices off S128x64x1x64x64) (a : FVec Ideal S128x64x2x64x64 .f32) :
    FVec Ideal S128x64x64x64 .f32 :=
  shapeCast S128x64x64x64 (extractStridedSlice S128x64x1x64x64 off a hs) shapeCasts_S128x64x1x64x64_S128x64x64x64

/-- One coefficient of the look-up's result, spread over the pixels. -/
def plane (off : Fin 5 → Nat) (hs : S128x64x4x1x1.Slices off S128x64x1x1x1) (cf : FVec Ideal S128x64x4 .f32) :
    FVec Ideal S128x64x64x64 .f32 :=
  broadcastInDim S128x64x64x64 ![0, 1, 2, 3] bcast_S128x64x1x1_S128x64x64x64_0_1_2_3
    (shapeCast S128x64x1x1
      (extractStridedSlice S128x64x1x1x1 off (broadcastInDim S128x64x4x1x1 ![0, 1, 2] bcast_S128x64x4_S128x64x4x1x1_0_1_2 cf) hs)
      shapeCasts_S128x64x1x1x1_S128x64x1x1)

/-- A clip bound: a scalar constant spread over the result's shape. -/
def bound (w : BitVec 32) : FVec Ideal S128x64x64x64 .f32 :=
  broadcastInDim S128x64x64x64 ![] bcast_S_S128x64x64x64 (constant (F := Ideal) S_ .f32 w)

/-- The reference's result as one term of its three arguments. -/
def result (x : IVec S128x64 32) (a1 a2 : FVec Ideal S128x64x2x64x64 .f32) : FVec Ideal S128x64x64x64 .f32 :=
  minimumf (bound 0x3F800000#32)
    (maximumf (bound 0x00000000#32)
      (addf
        (addf
          (addf
            (mulf (plane ![0, 0, 0, 0, 0] slices_S128x64x4x1x1_S128x64x1x1x1_0_0_0_0_0 (coefOf x))
              (chan ![0, 0, 0, 0, 0] slices_S128x64x2x64x64_S128x64x1x64x64_0_0_0_0_0 a1))
            (mulf (plane ![0, 0, 1, 0, 0] slices_S128x64x4x1x1_S128x64x1x1x1_0_0_1_0_0 (coefOf x))
              (chan ![0, 0, 1, 0, 0] slices_S128x64x2x64x64_S128x64x1x64x64_0_0_1_0_0 a1)))
          (mulf (plane ![0, 0, 2, 0, 0] slices_S128x64x4x1x1_S128x64x1x1x1_0_0_2_0_0 (coefOf x))
            (chan ![0, 0, 0, 0, 0] slices_S128x64x2x64x64_S128x64x1x64x64_0_0_0_0_0 a2)))
        (mulf (plane ![0, 0, 3, 0, 0] slices_S128x64x4x1x1_S128x64x1x1x1_0_0_3_0_0 (coefOf x))
          (chan ![0, 0, 1, 0, 0] slices_S128x64x2x64x64_S128x64x1x64x64_0_0_1_0_0 a2))))

/-! ## The fold at the result buffer and at the arguments -/

attribute [local irreducible] Host.gather in
set_option maxRecDepth 8192 in
set_option maxHeartbeats 800000 in
/-- The fold at the result buffer is `result` of the arguments' contents: each operation's result read where it is
    written and passed over elsewhere; the typed references of the clip's call carry their own types, so their
    transports are identities. The gather is kept folded meanwhile: the equation never looks inside it. -/
theorem out_eq (V : Valuation τ sig (Elt Ideal)) :
    after ops V (main_v35 : DevRef τ sig)
      = result (V (main_arg0 : DevRef τ sig)) (V (main_arg1 : DevRef τ sig)) (V (main_arg2 : DevRef τ sig)) := by
  simp only [after_cons, after_nil]
  rfl

theorem arg0_eq (V : Valuation τ sig (Elt Ideal)) : after ops V (main_arg0 : DevRef τ sig) = V (main_arg0 : DevRef τ sig) := by
  simp only [after_cons, after_nil]
  rfl

theorem arg1_eq (V : Valuation τ sig (Elt Ideal)) : after ops V (main_arg1 : DevRef τ sig) = V (main_arg1 : DevRef τ sig) := by
  simp only [after_cons, after_nil]
  rfl

theorem arg2_eq (V : Valuation τ sig (Elt Ideal)) : after ops V (main_arg2 : DevRef τ sig) = V (main_arg2 : DevRef τ sig) := by
  simp only [after_cons, after_nil]
  rfl

/-! ## The term at an index -/

/-- A channel at (b0, b1, y, x) is the observation array at (b0, b1, ch, y, x): the reshape keeps the row-major
    position, the slice shifts the size-2 axis by its offset. -/
theorem chan_apply (off : Fin 5 → Nat) (hs : S128x64x2x64x64.Slices off S128x64x1x64x64) (a : FVec Ideal S128x64x2x64x64 .f32)
    (ch : Fin 2) (h0 : off 0 = 0) (h1 : off 1 = 0) (h2 : off 2 = ch.val) (h3 : off 3 = 0) (h4 : off 4 = 0)
    (b0 : Fin 128) (b1 : Fin 64) (y x : Fin 64) :
    chan off hs a (ix4 b0 b1 y x) = a (ix5 b0 b1 ch y x) := by
  unfold chan
  refine (shapeCast_apply _ _ (ix4 b0 b1 y x) (ix5 b0 b1 (0 : Fin 1) y x) (by
    rw [Shape.rowMajor_val_five, Shape.rowMajor_val_four]
    show (((b0.val * 64 + b1.val) * 1 + 0) * 64 + y.val) * 64 + x.val = ((b0.val * 64 + b1.val) * 64 + y.val) * 64 + x.val
    omega)).trans ?_
  exact extractStridedSlice_apply off a hs (ix5 b0 b1 (0 : Fin 1) y x) (ix5 b0 b1 ch y x) (fun d => match d with
    | ⟨0, _⟩ => by show b0.val = off 0 + b0.val; omega
    | ⟨1, _⟩ => by show b1.val = off 1 + b1.val; omega
    | ⟨2, _⟩ => by show ch.val = off 2 + 0; omega
    | ⟨3, _⟩ => by show y.val = off 3 + y.val; omega
    | ⟨4, _⟩ => by show x.val = off 4 + x.val; omega)

/-- A plane at (b0, b1, y, x) is the look-up's result at (b0, b1, k), whatever the pixel. -/
theorem plane_apply (off : Fin 5 → Nat) (hs : S128x64x4x1x1.Slices off S128x64x1x1x1) (cf : FVec Ideal S128x64x4 .f32)
    (k : Fin 4) (h0 : off 0 = 0) (h1 : off 1 = 0) (h2 : off 2 = k.val) (h3 : off 3 = 0) (h4 : off 4 = 0)
    (b0 : Fin 128) (b1 : Fin 64) (y x : Fin 64) :
    plane off hs cf (ix4 b0 b1 y x) = cf (ix3 b0 b1 k) := by
  unfold plane
  -- the broadcast over the pixels reads (b0, b1, 0, 0): the two trailing axes of its operand have extent one
  refine (broadcastInDim_apply _ _ _ (ix4 b0 b1 y x) (ix4 b0 b1 (0 : Fin 1) (0 : Fin 1)) (fun d => match d with
    | ⟨0, _⟩ => by show b0.val = if (128 : Nat) = 1 then 0 else b0.val; rw [if_neg (by decide)]
    | ⟨1, _⟩ => by show b1.val = if (64 : Nat) = 1 then 0 else b1.val; rw [if_neg (by decide)]
    | ⟨2, _⟩ => by show (0 : Nat) = if (1 : Nat) = 1 then 0 else y.val; rw [if_pos rfl]
    | ⟨3, _⟩ => by show (0 : Nat) = if (1 : Nat) = 1 then 0 else x.val; rw [if_pos rfl])).trans ?_
  -- the reshape drops a unit axis: the same row-major position
  refine (shapeCast_apply _ _ (ix4 b0 b1 (0 : Fin 1) (0 : Fin 1)) (ix5 b0 b1 (0 : Fin 1) (0 : Fin 1) (0 : Fin 1)) (by
    rw [Shape.rowMajor_val_five, Shape.rowMajor_val_four]
    show (((b0.val * 64 + b1.val) * 1 + 0) * 1 + 0) * 1 + 0 = ((b0.val * 64 + b1.val) * 1 + 0) * 1 + 0
    omega)).trans ?_
  -- the slice picks coefficient k
  refine (extractStridedSlice_apply off _ hs (ix5 b0 b1 (0 : Fin 1) (0 : Fin 1) (0 : Fin 1)) (ix5 b0 b1 k (0 : Fin 1) (0 : Fin 1))
    (fun d => match d with
    | ⟨0, _⟩ => by show b0.val = off 0 + b0.val; omega
    | ⟨1, _⟩ => by show b1.val = off 1 + b1.val; omega
    | ⟨2, _⟩ => by show k.val = off 2 + 0; omega
    | ⟨3, _⟩ => by show (0 : Nat) = off 3 + 0; omega
    | ⟨4, _⟩ => by show (0 : Nat) = off 4 + 0; omega)).trans ?_
  -- the broadcast to two new unit axes reads the coefficient array itself
  exact broadcastInDim_apply _ _ cf (ix5 b0 b1 k (0 : Fin 1) (0 : Fin 1)) (ix3 b0 b1 k) (fun d => match d with
    | ⟨0, _⟩ => by show b0.val = if (128 : Nat) = 1 then 0 else b0.val; rw [if_neg (by decide)]
    | ⟨1, _⟩ => by show b1.val = if (64 : Nat) = 1 then 0 else b1.val; rw [if_neg (by decide)]
    | ⟨2, _⟩ => by show k.val = if (4 : Nat) = 1 then 0 else k.val; rw [if_neg (by decide)])

/-- A bound at any index is its word's value. -/
theorem bound_apply (w : BitVec 32) (i : S128x64x64x64.Idx) : bound w i = Ideal.ofBits .f32 w := by
  unfold bound
  exact broadcastInDim_apply _ _ _ i ix0 (fun a => a.elim0)

/-- THE REFERENCE'S RESULT is the specification's array of the look-up's result and the two observation arrays. -/
theorem result_eq (x : IVec S128x64 32) (a1 a2 : FVec Ideal S128x64x2x64x64 .f32) :
    result x a1 a2 = Cert.Blend.G (coefOf x) a1 a2 := by
  refine Cert.Blend.ext4 _ _ fun b0 b1 y x' => ?_
  rw [Cert.Blend.G_ix4]
  unfold result Cert.Blend.at4 Cert.Blend.clipBlend
  simp only [minimumf_apply, maximumf_apply, addf_apply, mulf_apply, bound_apply]
  rw [plane_apply ![0, 0, 0, 0, 0] _ (coefOf x) 0 rfl rfl rfl rfl rfl b0 b1 y x',
    plane_apply ![0, 0, 1, 0, 0] _ (coefOf x) 1 rfl rfl rfl rfl rfl b0 b1 y x',
    plane_apply ![0, 0, 2, 0, 0] _ (coefOf x) 2 rfl rfl rfl rfl rfl b0 b1 y x',
    plane_apply ![0, 0, 3, 0, 0] _ (coefOf x) 3 rfl rfl rfl rfl rfl b0 b1 y x',
    chan_apply ![0, 0, 0, 0, 0] _ a1 0 rfl rfl rfl rfl rfl b0 b1 y x',
    chan_apply ![0, 0, 1, 0, 0] _ a1 1 rfl rfl rfl rfl rfl b0 b1 y x',
    chan_apply ![0, 0, 0, 0, 0] _ a2 0 rfl rfl rfl rfl rfl b0 b1 y x',
    chan_apply ![0, 0, 1, 0, 0] _ a2 1 rfl rfl rfl rfl rfl b0 b1 y x']

end Cert.ReferenceIdeal.BlendRun

end
-- ==== Proof.lean ====
/-
  The certificate of a per-sample clipped blend of four images.

  Each of 128 x 64 samples carries a program number, and in each of two observation arrays two 64 x 64 images. The
  program number selects a row of four coefficients from a fixed 9 x 4 table (entries 0, 1 and -1), and the result image
  is, pixel by pixel,

      min(1, max(0, ((c0·h0 + c1·h1) + c2·r0) + c3·r1)).

  The kernel program folds each sample's two images into one axis of 8192 lanes on the host, computes two samples' rows
  per grid point reading the two images as the two halves of the lane axis, and unfolds its 4096-lane result back to
  64 x 64. The reference slices the images and the coefficients out and broadcasts the coefficients over the pixels. On the
  extended reals both are the SAME expression, the same products in the same order under the same two bounds, so they
  agree at every input, finite or not: nothing below uses the precondition, and no law of the extended reals is used.
  What is proved is layout: that lane 4096·ch + 64·y + x of a folded sample is pixel (y, x) of image ch, that the 64 grid
  points' blocks tile the leading axis, and that each program's coefficient at (b0, b1, k) is entry (b0, b1, k) of the
  same look-up of the program numbers — a look-up both programs state with the same table, the same wrap of a negative
  number and the same gather, which is therefore carried as one function and never opened.

  The idealized kernel program is the kernel program's own text read on the extended reals, no operation of it rewritten,
  so there is nothing for `preserves` to state: it is `True`.
-/
import proofs.«145569_j34170759807476_2_alg».proof.Defs
import proofs.«145569_j34170759807476_2_alg».proof.Proof.Gen.Kernel
import proofs.«145569_j34170759807476_2_alg».proof.Proof.Gen.Kernel.Frame
import proofs.«145569_j34170759807476_2_alg».proof.Proof.Gen.KernelIdeal
import proofs.«145569_j34170759807476_2_alg».proof.Proof.Gen.KernelIdeal.Frame
import proofs.«145569_j34170759807476_2_alg».proof.Proof.Gen.ReferenceIdeal
import proofs.«145569_j34170759807476_2_alg».proof.Proof.Gen.Pre_finite_inputs
import proofs.«145569_j34170759807476_2_alg».proof.Proof.KerValue
import proofs.«145569_j34170759807476_2_alg».proof.Proof.RefValue
import Idealize.ShloMosaic.Adequacy
import Idealize.ShloMosaic.Init

noncomputable section

namespace Cert.Proof

open Idealize.ShloMosaic Idealize.ShloMosaic.TcCoe Idealize.SL.Sem

/-- The two programs' coefficient tables hold the same 36 words. -/
theorem table_eq : ∀ k : Fin 36, Cert.ReferenceIdeal.lit0 k = Cert.KernelIdeal.lit0 k := by decide

/-- The two programs' coefficient look-ups are one function of the program numbers: the same table, the same wrap of a
    negative number, the same gather. -/
theorem lookup_eq (x : IVec Cert.KernelIdeal.S128x64 32) :
    Cert.ReferenceIdeal.BlendRun.coefOf x = Cert.KernelIdeal.BlendValue.coefOf x := by
  unfold Cert.ReferenceIdeal.BlendRun.coefOf Cert.KernelIdeal.BlendValue.coefOf
  have ht : (fun i => FloatOps.ofBits (F := Ideal) .f32 (Cert.ReferenceIdeal.lit0 (Cert.ReferenceIdeal.S9x4.rowMajor i)))
      = (fun i => FloatOps.ofBits (F := Ideal) .f32 (Cert.KernelIdeal.lit0 (Cert.KernelIdeal.S9x4.rowMajor i))) :=
    funext fun i => congrArg (FloatOps.ofBits (F := Ideal) .f32) (table_eq _)
  rw [ht]
  rfl

/-- The word-level kernel program runs and keeps its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and keeps its arguments: its run, read at the three argument buffers, which no operation writes. -/
theorem frame_ri : Cert.frame_ReferenceIdeal := fun m ρ _ =>
  (θ_run Cert.ReferenceIdeal.defs _ _).mono
    (fun _ h c => ⟨(h c Cert.ReferenceIdeal.main_arg0).trans (Cert.ReferenceIdeal.BlendRun.arg0_eq _),
      (h c Cert.ReferenceIdeal.main_arg1).trans (Cert.ReferenceIdeal.BlendRun.arg1_eq _),
      (h c Cert.ReferenceIdeal.main_arg2).trans (Cert.ReferenceIdeal.BlendRun.arg2_eq _)⟩)
    (Cert.ReferenceIdeal.BlendRun.run_main (F := Ideal) m ρ)

/-- No operation of the kernel program was rewritten in its idealization: the claim is `True`. -/
theorem preserves : Cert.preserves_Kernel_KernelIdeal := trivial

/-- From memories agreeing on the arguments both programs end with the specification's array of the look-up's result
    and the two observation arguments: the kernel program by its run read block by block and through its reshapes, the
    reference by its run read operation by operation; the two look-ups are one function. -/
theorem algebraic : Cert.algebraic_KernelIdeal_ReferenceIdeal := by
  intro m ρ m' ρ' _ hagree
  refine ⟨fun c => Cert.Blend.G
      (Cert.KernelIdeal.BlendValue.coefOf (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.BlendValue.run m ρ, ?_⟩
  refine (θ_run Cert.ReferenceIdeal.defs _ _).mono
    (fun _ h c => ⟨((h c Cert.ReferenceIdeal.main_v35).trans (Cert.ReferenceIdeal.BlendRun.out_eq _)).trans ?_,
      (h c Cert.ReferenceIdeal.main_arg0).trans (Cert.ReferenceIdeal.BlendRun.arg0_eq _),
      (h c Cert.ReferenceIdeal.main_arg1).trans (Cert.ReferenceIdeal.BlendRun.arg1_eq _),
      (h c Cert.ReferenceIdeal.main_arg2).trans (Cert.ReferenceIdeal.BlendRun.arg2_eq _)⟩)
    (Cert.ReferenceIdeal.BlendRun.run_main (F := Ideal) m' ρ')
  show Cert.ReferenceIdeal.BlendRun.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2, Cert.ReferenceIdeal.BlendRun.result_eq, lookup_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
